-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x4096x64 : Shape := ⟨4, ![8, 16, 4096, 64]⟩
abbrev S64x64 : Shape := ⟨2, ![64, 64]⟩
abbrev S64 : Shape := ⟨1, ![64]⟩
abbrev S_ : Shape := ⟨0, ![]⟩

class Facts : Prop where
  bcast_S_S8x16x4096x64 : S_.BroadcastsInDim S8x16x4096x64 (![] : Fin 0 → Fin S8x16x4096x64.rank)
  reducesTo_S8x16x4096x64_S_d0_1_2_3 : S8x16x4096x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x16x4096x64 .f32) (main_arg1 : FVec F S64x64 .f32) (main_arg2 : FVec F S64 .f32) : IVec S_ 1 :=
  let main_v0 : FVec F S8x16x4096x64 .f32 := Host.absf main_arg0
  let main_cst : FVec F S_ .f32 := constant S_ .f32 0x7F800000#32
  let main_v1 : FVec F S8x16x4096x64 .f32 := broadcastInDim S8x16x4096x64 ![] bcast_S_S8x16x4096x64 main_cst
  let main_v2 : IVec S8x16x4096x64 1 := cmpf .olt main_v0 main_v1
  let main_c : IVec S_ 1 := constantI S_ 1 1#1
  let main_v3 : IVec S_ 1 := (fun x v => Host.reduce IntOp.andi x v reducesTo_S8x16x4096x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x16x4096x64 : Shape := ⟨4, ![8, 16, 4096, 64]⟩
abbrev S64x64 : Shape := ⟨2, ![64, 64]⟩
abbrev S64 : Shape := ⟨1, ![64]⟩
abbrev S262144x128 : Shape := ⟨2, ![262144, 128]⟩
abbrev S_ : Shape := ⟨0, ![]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S2048x128 : Shape := ⟨2, ![2048, 128]⟩
abbrev S2048x64 : Shape := ⟨2, ![2048, 64]⟩
abbrev S2048 : Shape := ⟨1, ![2048]⟩
abbrev S2048x1 : Shape := ⟨2, ![2048, 1]⟩

abbrev nBuf : Space → Nat
  | .hbm => 14
  | .vmem => 6
  | .smem => 0
  | _ => 0

abbrev bufTy : (tb : Table) → Fin (tcTables nBuf tb) → BufTy
  | .hbm, ⟨0, _⟩ => ⟨S8x16x4096x64, .f32⟩
  | .hbm, ⟨1, _⟩ => ⟨S64x64, .f32⟩
  | .hbm, ⟨2, _⟩ => ⟨S64, .f32⟩
  | .hbm, ⟨3, _⟩ => ⟨S262144x128, .f32⟩
  | .hbm, ⟨4, _⟩ => ⟨S64x64, .f32⟩
  | .hbm, ⟨5, _⟩ => ⟨S_, .f32⟩
  | .hbm, ⟨6, _⟩ => ⟨S64x64, .f32⟩
  | .hbm, ⟨7, _⟩ => ⟨S64x128, .f32⟩
  | .hbm, ⟨8, _⟩ => ⟨S64x128, .f32⟩
  | .hbm, ⟨9, _⟩ => ⟨S128x128, .f32⟩
  | .hbm, ⟨10, _⟩ => ⟨S128, .f32⟩
  | .hbm, ⟨11, _⟩ => ⟨S1x128, .f32⟩
  | .hbm, ⟨12, _⟩ => ⟨S262144x128, .f32⟩
  | .hbm, ⟨13, _⟩ => ⟨S8x16x4096x64, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | _, _ => ⟨S8x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x16x4096x64_S262144x128 : S8x16x4096x64.ShapeCasts S262144x128
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S2048x128_o0_0_S2048x64 : S2048x128.Slices ![0, 0] S2048x64
  reduces_S2048x64_S2048 : S2048x64.Reduces [1] S2048
  shapeCasts_S2048_S2048x1 : S2048.ShapeCasts S2048x1
  slices_S2048x128_o0_64_S2048x64 : S2048x128.Slices ![0, 64] S2048x64
  iota_S2048x128_d1_w32 : S2048x128.Iotas .tc 32 [1]
  shapeCasts_S2048x1_S2048x1 : S2048x1.ShapeCasts S2048x1
  broadcasts_S2048x1_S2048x128 : S2048x1.Broadcasts S2048x128
  shapeCasts_S262144x128_S8x16x4096x64 : S262144x128.ShapeCasts S8x16x4096x64
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S262144x128.size a
  hwx0_3 : ∀ i : grid0.Coords, EltTy.bits .f32 = 32 ∨ (Rect.block (s := S262144x128) S2048x128.size (cc0_transform_3 i) (hinb0_3 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16x4096x64 : Shape := ⟨4, ![8, 16, 4096, 64]⟩
abbrev S64x64 : Shape := ⟨2, ![64, 64]⟩
abbrev S64 : Shape := ⟨1, ![64]⟩
abbrev S_ : Shape := ⟨0, ![]⟩
abbrev S8x16x4096 : Shape := ⟨3, ![8, 16, 4096]⟩
abbrev S1x1x1x64 : Shape := ⟨4, ![1, 1, 1, 64]⟩
abbrev S8x16x4096x1 : Shape := ⟨4, ![8, 16, 4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x16x4096x64, .f32⟩
  | .hbm, ⟨1, _⟩ => ⟨S64x64, .f32⟩
  | .hbm, ⟨2, _⟩ => ⟨S64, .f32⟩
  | .hbm, ⟨3, _⟩ => ⟨S8x16x4096x64, .f32⟩
  | .hbm, ⟨4, _⟩ => ⟨S_, .f32⟩
  | .hbm, ⟨5, _⟩ => ⟨S8x16x4096x64, .f32⟩
  | .hbm, ⟨6, _⟩ => ⟨S8x16x4096x64, .i1⟩
  | .hbm, ⟨7, _⟩ => ⟨S_, .i1⟩
  | .hbm, ⟨8, _⟩ => ⟨S8x16x4096, .i1⟩
  | .hbm, ⟨9, _⟩ => ⟨S8x16x4096x64, .f32⟩
  | .hbm, ⟨10, _⟩ => ⟨S1x1x1x64, .f32⟩
  | .hbm, ⟨11, _⟩ => ⟨S8x16x4096x64, .f32⟩
  | .hbm, ⟨12, _⟩ => ⟨S8x16x4096x64, .f32⟩
  | .hbm, ⟨13, _⟩ => ⟨S8x16x4096x1, .i1⟩
  | .hbm, ⟨14, _⟩ => ⟨S_, .f32⟩
  | .hbm, ⟨15, _⟩ => ⟨S8x16x4096x64, .f32⟩
  | .hbm, ⟨16, _⟩ => ⟨S8x16x4096x64, .i1⟩
  | .hbm, ⟨17, _⟩ => ⟨S8x16x4096x64, .f32⟩
  | _, _ => ⟨S8x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_call0_v0 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S8x16x4096x64 : S_.BroadcastsInDim S8x16x4096x64 (![] : Fin 0 → Fin S8x16x4096x64.rank)
  reducesTo_S8x16x4096x64_S8x16x4096_d3 : S8x16x4096x64.ReducesTo [3] S8x16x4096
  h_S_ : 0 < S_.numel
  bcast_S64_S1x1x1x64_3 : S64.BroadcastsInDim S1x1x1x64 (![3] : Fin 1 → Fin S1x1x1x64.rank)
  bcast_S1x1x1x64_S8x16x4096x64_0_1_2_3 : S1x1x1x64.BroadcastsInDim S8x16x4096x64 (![0, 1, 2, 3] : Fin 4 → Fin S8x16x4096x64.rank)
  bcast_S8x16x4096_S8x16x4096x1_0_1_2 : S8x16x4096.BroadcastsInDim S8x16x4096x1 (![0, 1, 2] : Fin 3 → Fin S8x16x4096x1.rank)
  bcast_S8x16x4096x1_S8x16x4096x64_0_1_2_3 : S8x16x4096x1.BroadcastsInDim S8x16x4096x64 (![0, 1, 2, 3] : Fin 4 → Fin S8x16x4096x64.rank)
  dot_S8x16x4096x64_S64x64_S8x16x4096x64_3_1_012_0_n_n_wf : DotDims.WF S8x16x4096x64 S64x64 S8x16x4096x64 [3] [1] [0, 1, 2] [0] [] []

variable [Facts₀]

def dot_S8x16x4096x64_S64x64_S8x16x4096x64_3_1_012_0_n_n : DotDims S8x16x4096x64 S64x64 S8x16x4096x64 where
  lhsContracting := [3]
  rhsContracting := [1]
  lhsNonContracting := [0, 1, 2]
  rhsNonContracting := [0]
  lhsBatch := []
  rhsBatch := []
  wf := dot_S8x16x4096x64_S64x64_S8x16x4096x64_3_1_012_0_n_n_wf

class Facts : Prop extends Facts₀ where

variable [Facts]
-- ==== Proof.Spec.lean ====
/-
  The mathematics the two programs share, stated on the extended reals with no program in sight.

  A token's row of 64 features is sent through an affine map exactly when some feature's absolute value exceeds a
  threshold, and is replaced by zero otherwise. One program decides "some |x| exceeds the threshold" by an `or`
  over the row's comparison bits; the other takes the row's maximum of |x| from negative infinity and compares
  that once. The two agree because a maximum over a finite family exceeds a bound exactly when a member does, and
  negative infinity exceeds nothing. One program contracts the 64 features with a row of the weight matrix; the
  other contracts 128 lanes (two tokens side by side) with a column of a block-diagonal matrix, whose off-block
  entries are zero: those 64 products are each zero on the extended reals (zero times anything, infinities
  included, is zero), so the 128-term sum is the 64-term one. No finiteness of the inputs is used.
-/
import Idealize.ShloMosaic.PureOps.Ideal
import Idealize.ShloMosaic.PureOps.Ideal.Laws
import Idealize.ShloMosaic.PureOps.Reduce
import Idealize.ShloMosaic.Lib.Affine
import Idealize.ShloMosaic.Lib.ValueIdx

noncomputable section

namespace Cert.EventLinear

open Idealize.ShloMosaic

/-! ## Bits -/

/-- A bit made from a Boolean is set exactly when the Boolean is true. -/
theorem ofBool_eq_one {b : Bool} : BitVec.ofBool b = 1#1 ↔ b = true := by cases b <;> decide

/-- The ordered "greater than" of two extended reals, as a bit. -/
theorem cmp_ogt_eq_one (x y : EReal) : Ideal.cmp .ogt x y = 1#1 ↔ y < x := by
  show BitVec.ofBool (decide (y < x)) = 1#1 ↔ y < x
  rw [ofBool_eq_one, decide_eq_true_iff]

/-- A select on a bit that is set exactly when `p` holds is the `if` on `p`. -/
theorem select_of_iff {α : Type} {c : BitVec 1} {p : Prop} [Decidable p] (h : c = 1#1 ↔ p) (a b : α) :
    Scalar.select c a b = if p then a else b := by
  unfold Scalar.select
  by_cases hp : p
  · rw [if_pos hp]; exact if_pos (h.2 hp)
  · rw [if_neg hp]; exact if_neg (fun hc => hp (h.1 hc))

/-- A one-bit word is `0` or `1`. -/
theorem bit_cases (c : BitVec 1) : c = 0#1 ∨ c = 1#1 := by revert c; decide

/-! ## Negative infinity -/

/-- The f32 pattern of negative infinity denotes the bottom of the extended reals. -/
theorem ofBits_neg_inf : Ideal.ofBits .f32 0xFF800000#32 = ⊥ := by
  simp [Ideal.ofBits, Ideal.ieee]

/-! ## A maximum exceeds a bound exactly when a member does -/

/-- The maximum, from negative infinity, of a finite family exceeds `θ` exactly when some member does. -/
theorem lt_fold_max_bot_iff {n : Nat} (θ : EReal) (f : Fin n → EReal) :
    θ < (Finset.univ : Finset (Fin n)).fold max ⊥ f ↔ ∃ k, θ < f k := by
  rw [Finset.lt_fold_max]
  constructor
  · rintro (h | ⟨k, -, hk⟩)
    · exact absurd h not_lt_bot
    · exact ⟨k, hk⟩
  · rintro ⟨k, hk⟩
    exact Or.inr ⟨k, Finset.mem_univ k, hk⟩

/-! ## An `or` over a list of bits -/

/-- A left fold by `or` over one-bit words is set exactly when it started set or met a set word. -/
theorem foldl_ori_eq_one {ι : Type} (f : ι → BitVec 1) :
    ∀ (l : List ι) (init : BitVec 1), l.foldl (fun r n => IntOp.ori r (f n)) init = 1#1 ↔ init = 1#1 ∨ ∃ n ∈ l, f n = 1#1
  | [], init => by simp
  | a :: l, init => by
    rw [List.foldl_cons, foldl_ori_eq_one f l, IntOp.ori_eq_one]
    constructor
    · rintro ((h | h) | ⟨n, hn, h⟩)
      · exact Or.inl h
      · exact Or.inr ⟨a, List.mem_cons_self, h⟩
      · exact Or.inr ⟨n, List.mem_cons_of_mem _ hn, h⟩
    · rintro (h | ⟨n, hn, h⟩)
      · exact Or.inl (Or.inl h)
      · rcases List.mem_cons.1 hn with rfl | hn
        · exact Or.inl (Or.inr h)
        · exact Or.inr ⟨n, hn, h⟩

/-- A host reduction by `or`, from `false`, is set at `j` exactly when some operand index that reduces into `j`
    holds a set bit. -/
theorem reduce_ori_eq_one {s t u : Shape} {axes : List (Fin s.rank)} (x : s.Idx → BitVec 1) (init : u.Idx → BitVec 1)
    (h : s.ReducesTo axes t) (hu : 0 < u.numel) (hinit : ∀ i, init i = 0#1) (j : t.Idx) :
    Host.reduce IntOp.ori x init h hu j = 1#1 ↔ ∃ i : s.Idx, h.drop i = j ∧ x i = 1#1 := by
  rw [Host.reduce_eq_foldl, foldl_ori_eq_one, hinit]
  constructor
  · rintro (h0 | ⟨i, hi, hx⟩)
    · exact absurd h0 (by decide)
    · rw [List.mem_filter] at hi
      exact ⟨i, by simpa using hi.2, hx⟩
  · rintro ⟨i, hi, hx⟩
    refine Or.inr ⟨i, ?_, hx⟩
    rw [List.mem_filter]
    exact ⟨List.mem_map.2 ⟨s.rowMajor i, List.mem_finRange _, Equiv.symm_apply_apply _ _⟩, by simp [hi]⟩

/-! ## A sum over 128 lanes against a column that vanishes on one half -/

/-- Against a column that is zero on the upper 64 lanes the 128-term sum of products is the sum over the lower 64. -/
theorem sum_mul_lower (a w : Fin 128 → EReal) (hw : ∀ k : Fin 64, w (Fin.natAdd 64 k) = 0) :
    ∑ k : Fin 128, a k * w k = ∑ k : Fin 64, a (Fin.castAdd 64 k) * w (Fin.castAdd 64 k) := by
  rw [show (∑ k : Fin 128, a k * w k) = ∑ k : Fin (64 + 64), a k * w k from rfl, Fin.sum_univ_add,
    Finset.sum_eq_zero (s := Finset.univ) (f := fun k : Fin 64 => a (Fin.natAdd 64 k) * w (Fin.natAdd 64 k))
      (fun k _ => by rw [hw k, mul_zero]), add_zero]

/-- Against a column that is zero on the lower 64 lanes it is the sum over the upper 64. -/
theorem sum_mul_upper (a w : Fin 128 → EReal) (hw : ∀ k : Fin 64, w (Fin.castAdd 64 k) = 0) :
    ∑ k : Fin 128, a k * w k = ∑ k : Fin 64, a (Fin.natAdd 64 k) * w (Fin.natAdd 64 k) := by
  rw [show (∑ k : Fin 128, a k * w k) = ∑ k : Fin (64 + 64), a k * w k from rfl, Fin.sum_univ_add,
    Finset.sum_eq_zero (s := Finset.univ) (f := fun k : Fin 64 => a (Fin.castAdd 64 k) * w (Fin.castAdd 64 k))
      (fun k _ => by rw [hw k, mul_zero]), zero_add]

end Cert.EventLinear

end
-- ==== Proof.Row.lean ====
import proofs.«143516_g33071248179949_cont_8to1_b_238_4_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«143516_g33071248179949_cont_8to1_b_238_4_alg».proof.Proof.Spec

/-
  The kernel body's stored value, one cell at a time.

  At row `p` and lane `q` of a 2048×128 block the body stores: where the maximum of |x| over the row's half that
  holds lane `q` (lanes 0–63 or 64–127; the maximum is taken from negative infinity) exceeds the threshold, the
  128-term product of the row with column `q` of the weight block plus the bias row's lane `q`; elsewhere zero.
  Each operand that is not pointwise — the matrix product into a zero accumulator, the broadcast bias row, the lane
  index, the two half-row maxima carried through a column and broadcast back — is read at `(p, q)` by a lemma of its
  own; the cell is their composition.
-/

set_option maxRecDepth 16384

noncomputable section

namespace Cert.KernelIdeal.Row

open Cert.KernelIdeal Cert.KernelIdeal.Gen Idealize.ShloMosaic Idealize.ShloMosaic.TcCoe Idealize.SL.Sem Idealize.ShloMosaic.StableHlo Idealize.ShloMosaic.ValueIdx

theorem lhs_row (i : S2048x128.Idx) (κ : dot_S2048x128_S128x128_S2048x128_1_0_0_1_n_n.contr.Idx) : (dot_S2048x128_S128x128_S2048x128_1_0_0_1_n_n.lhsIdx i κ 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_contr (i : S2048x128.Idx) (κ : dot_S2048x128_S128x128_S2048x128_1_0_0_1_n_n.contr.Idx) : (dot_S2048x128_S128x128_S2048x128_1_0_0_1_n_n.lhsIdx i κ 1).val = (κ ⟨0, by decide⟩).val :=
  dot_S2048x128_S128x128_S2048x128_1_0_0_1_n_n.lhsIdx_val_of_single rfl i κ
theorem rhs_contr (i : S2048x128.Idx) (κ : dot_S2048x128_S128x128_S2048x128_1_0_0_1_n_n.contr.Idx) : (dot_S2048x128_S128x128_S2048x128_1_0_0_1_n_n.rhsIdx i κ 0).val = (κ ⟨0, by decide⟩).val :=
  dot_S2048x128_S128x128_S2048x128_1_0_0_1_n_n.rhsIdx_val_of_single rfl i κ
theorem rhs_col (i : S2048x128.Idx) (κ : dot_S2048x128_S128x128_S2048x128_1_0_0_1_n_n.contr.Idx) : (dot_S2048x128_S128x128_S2048x128_1_0_0_1_n_n.rhsIdx i κ 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The block product at row `p`, lane `q`: the 128-term sum of the row against the weight's column. -/
theorem mm (x0 : Vec Ideal S2048x128 .f32) (x1 : Vec Ideal S128x128 .f32) (p : Fin 2048) (q : Fin 128) :
    matmul (F := Ideal) dot_S2048x128_S128x128_S2048x128_1_0_0_1_n_n none (shapeCast S2048x128 x0 shapeCasts_S2048x128_S2048x128 : FVec Ideal S2048x128 .f32)
        (shapeCast S128x128 x1 shapeCasts_S128x128_S128x128 : FVec Ideal S128x128 .f32) (constant S2048x128 .f32 0x00000000#32) (ix2 p q)
      = ∑ k : Fin 128, x0 (ix2 p k) * x1 (ix2 k q) := by
  rw [shapeCast_self, shapeCast_self]
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 p q) ((ValueIdx.contrEquiv1 dot_S2048x128_S128x128_S2048x128_1_0_0_1_n_n 128 rfl rfl).symm k) = ix2 p k := funext fun a => Fin.ext (by
    match a with
    | ⟨0, _⟩ => exact lhs_row _ _
    | ⟨1, _⟩ => exact (lhs_contr _ _).trans hk)
  have er : dot_S2048x128_S128x128_S2048x128_1_0_0_1_n_n.rhsIdx (ix2 p q) ((ValueIdx.contrEquiv1 dot_S2048x128_S128x128_S2048x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The bias row broadcast down the block. -/
theorem bb (x2 : Vec Ideal S1x128 .f32) (p : Fin 2048) (q : Fin 128) :
    broadcastTo S2048x128 (shapeCast S1x128 x2 shapeCasts_S1x128_S1x128 : FVec Ideal S1x128 .f32) broadcasts_S1x128_S2048x128 (ix2 p q) = x2 (ix2 (0 : Fin 1) q) := by
  rw [shapeCast_self]
  exact broadcastTo_1b_ab_apply x2 _ p q

/-- The lane index. -/
theorem lane (p : Fin 2048) (q : Fin 128) :
    iota .tc S2048x128 32 [1] iota_S2048x128_d1_w32 (ix2 p q) = BitVec.ofNat 32 q.val :=
  iota_single_apply .tc S2048x128 32 1 iota_S2048x128_d1_w32 (ix2 p q)

/-- The source index over row `p` whose lane coordinate is `k`. -/
theorem lift_row (p : Fin 2048) (k : Fin 64) : reduces_S2048x64_S2048.lift (ix1 p) k = (ix2 p k : S2048x64.Idx) := by
  funext a; apply Fin.ext
  match a with
  | ⟨0, _⟩ =>
    show Shape.Reduces.liftVal reduces_S2048x64_S2048 (ix1 p) k.val (0 : Fin 2) = p.val
    unfold Shape.Reduces.liftVal
    rw [dif_neg (show ¬((0 : Fin 2).val = (1 : Fin 2).val) by decide), dif_pos (show (0 : Fin 2).val < (1 : Fin 2).val by decide)]
  | ⟨1, _⟩ =>
    show Shape.Reduces.liftVal reduces_S2048x64_S2048 (ix1 p) k.val (1 : Fin 2) = k.val
    unfold Shape.Reduces.liftVal
    rw [dif_pos (show (1 : Fin 2).val = (1 : Fin 2).val from rfl)]

/-- The maximum of |x| over lanes 0–63 of row `p`, wherever it is broadcast to. -/
theorem peak_lo (x0 : FVec Ideal S2048x128 .f32) (p : Fin 2048) (q : Fin 128) :
    broadcastTo S2048x128 (shapeCast S2048x1 (shapeCast S2048x1
        (multiReduction (F := Ideal) .maximumf [1] S2048
          (extractStridedSlice S2048x64 ![0, 0] (absf (shapeCast S2048x128 x0 shapeCasts_S2048x128_S2048x128 : FVec Ideal S2048x128 .f32)) slices_S2048x128_o0_0_S2048x64)
          0xFF800000#32 reduces_S2048x64_S2048 (.inl rfl) rfl)
        shapeCasts_S2048_S2048x1) shapeCasts_S2048x1_S2048x1) broadcasts_S2048x1_S2048x128 (ix2 p q)
      = (Finset.univ : Finset (Fin 64)).fold max (Ideal.ofBits .f32 0xFF800000#32)
          (fun k => max (x0 (ix2 p (Fin.castAdd 64 k))) (-(x0 (ix2 p (Fin.castAdd 64 k))))) := by
  rw [shapeCast_self (s := S2048x1), shapeCast_self (s := S2048x128)]
  refine (broadcastTo_apply _ broadcasts_S2048x1_S2048x128 (ix2 p q) (ix2 p (0 : Fin 1)) (fun a => match a with
    | ⟨0, _⟩ => by show p.val = if (2048 : Nat) = 1 then 0 else p.val; rw [if_neg (by decide)]
    | ⟨1, _⟩ => by show 0 = if (1 : Nat) = 1 then 0 else q.val; rw [if_pos rfl])).trans ?_
  refine (shapeCast_apply _ shapeCasts_S2048_S2048x1 (ix2 p (0 : Fin 1)) (ix1 p) (by
    rw [Shape.rowMajor_val_one, Shape.rowMajor_val_two]; show p.val = p.val * 1 + 0; omega)).trans ?_
  refine (Ideal.multiReduction_maximumf_single _ _ reduces_S2048x64_S2048 _ _ (ix1 p)).trans ?_
  show Finset.fold max (Ideal.ofBits .f32 0xFF800000#32) _ (Finset.univ : Finset (Fin 64)) = _
  refine congrArg (fun f : Fin 64 → EReal => Finset.fold max (Ideal.ofBits .f32 0xFF800000#32) f Finset.univ) (funext fun k => ?_)
  refine (congrArg (extractStridedSlice S2048x64 ![0, 0] (absf x0) slices_S2048x128_o0_0_S2048x64) (lift_row p k)).trans ?_
  refine (extractStridedSlice_apply ![0, 0] (absf x0) slices_S2048x128_o0_0_S2048x64 (ix2 p k) (ix2 p (Fin.castAdd 64 k)) (fun a => match a with
    | ⟨0, _⟩ => by show p.val = 0 + p.val; omega
    | ⟨1, _⟩ => by show k.val = 0 + k.val; omega)).trans ?_
  rfl

/-- The maximum of |x| over lanes 64–127 of row `p`, wherever it is broadcast to. -/
theorem peak_hi (x0 : FVec Ideal S2048x128 .f32) (p : Fin 2048) (q : Fin 128) :
    broadcastTo S2048x128 (shapeCast S2048x1 (shapeCast S2048x1
        (multiReduction (F := Ideal) .maximumf [1] S2048
          (extractStridedSlice S2048x64 ![0, 64] (absf (shapeCast S2048x128 x0 shapeCasts_S2048x128_S2048x128 : FVec Ideal S2048x128 .f32)) slices_S2048x128_o0_64_S2048x64)
          0xFF800000#32 reduces_S2048x64_S2048 (.inl rfl) rfl)
        shapeCasts_S2048_S2048x1) shapeCasts_S2048x1_S2048x1) broadcasts_S2048x1_S2048x128 (ix2 p q)
      = (Finset.univ : Finset (Fin 64)).fold max (Ideal.ofBits .f32 0xFF800000#32)
          (fun k => max (x0 (ix2 p (Fin.natAdd 64 k))) (-(x0 (ix2 p (Fin.natAdd 64 k))))) := by
  rw [shapeCast_self (s := S2048x1), shapeCast_self (s := S2048x128)]
  refine (broadcastTo_apply _ broadcasts_S2048x1_S2048x128 (ix2 p q) (ix2 p (0 : Fin 1)) (fun a => match a with
    | ⟨0, _⟩ => by show p.val = if (2048 : Nat) = 1 then 0 else p.val; rw [if_neg (by decide)]
    | ⟨1, _⟩ => by show 0 = if (1 : Nat) = 1 then 0 else q.val; rw [if_pos rfl])).trans ?_
  refine (shapeCast_apply _ shapeCasts_S2048_S2048x1 (ix2 p (0 : Fin 1)) (ix1 p) (by
    rw [Shape.rowMajor_val_one, Shape.rowMajor_val_two]; show p.val = p.val * 1 + 0; omega)).trans ?_
  refine (Ideal.multiReduction_maximumf_single _ _ reduces_S2048x64_S2048 _ _ (ix1 p)).trans ?_
  show Finset.fold max (Ideal.ofBits .f32 0xFF800000#32) _ (Finset.univ : Finset (Fin 64)) = _
  refine congrArg (fun f : Fin 64 → EReal => Finset.fold max (Ideal.ofBits .f32 0xFF800000#32) f Finset.univ) (funext fun k => ?_)
  refine (congrArg (extractStridedSlice S2048x64 ![0, 64] (absf x0) slices_S2048x128_o0_64_S2048x64) (lift_row p k)).trans ?_
  refine (extractStridedSlice_apply ![0, 64] (absf x0) slices_S2048x128_o0_64_S2048x64 (ix2 p k) (ix2 p (Fin.natAdd 64 k)) (fun a => match a with
    | ⟨0, _⟩ => by show p.val = 0 + p.val; omega
    | ⟨1, _⟩ => by show 64 + k.val = 64 + k.val; omega)).trans ?_
  rfl

/-! ## The cell -/

/-- What the body stores at lane `q` of a row, from that row of the token block, the weight block and the bias row. -/
def cell (row : Fin 128 → EReal) (w2 : S128x128.Idx → EReal) (b2 : S1x128.Idx → EReal) (q : Fin 128) : EReal :=
  Scalar.select
    (Ideal.cmp .ogt
      (Scalar.select (IntOp.cmpi .slt (BitVec.ofNat 32 q.val) 64#32)
        ((Finset.univ : Finset (Fin 64)).fold max (Ideal.ofBits .f32 0xFF800000#32) (fun k => max (row (Fin.castAdd 64 k)) (-(row (Fin.castAdd 64 k)))))
        ((Finset.univ : Finset (Fin 64)).fold max (Ideal.ofBits .f32 0xFF800000#32) (fun k => max (row (Fin.natAdd 64 k)) (-(row (Fin.natAdd 64 k))))))
      (Ideal.ofBits .f32 0x3C23D70A#32))
    ((∑ k : Fin 128, row k * w2 (ix2 k q)) + b2 (ix2 (0 : Fin 1) q))
    (Ideal.ofBits .f32 0x00000000#32)

/-- The body's stored value at `(p, q)` is the cell of row `p`. -/
theorem pay_apply (x0 : Vec Ideal S2048x128 .f32) (x1 : Vec Ideal S128x128 .f32) (x2 : Vec Ideal S1x128 .f32) (p : Fin 2048) (q : Fin 128) :
    k0_pay1 (F := Ideal) x0 x1 x2 (ix2 p q) = cell (fun k => x0 (ix2 p k)) x1 x2 q := by
  unfold cell
  rw [← mm x0 x1 p q, ← bb x2 p q, ← peak_lo x0 p q, ← peak_hi x0 p q, ← lane p q]
  rfl

/-- The cell depends on its four arguments only. -/
theorem cell_congr {row row' : Fin 128 → EReal} {w2 w2' : S128x128.Idx → EReal} {b2 b2' : S1x128.Idx → EReal} {q q' : Fin 128}
    (hr : row = row') (hw : w2 = w2') (hb : b2 = b2') (hq : q = q') : cell row w2 b2 q = cell row' w2' b2' q' := by
  subst hr hw hb hq; rfl

end Cert.KernelIdeal.Row

end
-- ==== Proof.Entry.lean ====
import proofs.«143516_g33071248179949_cont_8to1_b_238_4_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«143516_g33071248179949_cont_8to1_b_238_4_alg».proof.Proof.Spec

/-
  What the region finds in its three staged arrays, after the host operations before it.

  * the token array [8,16,4096,64] re-laid as [262144,128]: row `r` holds tokens `2r` and `2r+1` side by side, so
    entry `(r, k)` is the entry of the token array at the same row-major position `128 r + k`;
  * the 128×128 weight: `Wᵀ` twice on the diagonal and zero off it — entry `(k, l)` is `W (l, k)` in the upper-left
    block, `W (l − 64, k − 64)` in the lower-right one, and the extended real `0` in the other two;
  * the bias as one row of 128 lanes: `b` twice, entry `(0, l)` is `b (l)` below lane 64 and `b (l − 64)` from there on.
-/

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo Idealize.ShloMosaic.ValueIdx

/-! ## The three arrays as functions of the arguments -/

/-- The token array with two tokens per row. -/
def packX (x : S8x16x4096x64.Idx → EReal) : S262144x128.Idx → EReal :=
  shapeCast S262144x128 x shapeCasts_S8x16x4096x64_S262144x128

/-- The 64×64 block of zeros. -/
def zeroBlock : S64x64.Idx → EReal :=
  broadcastInDim S64x64 ![] bcast_S_S64x64 (constant (F := Ideal) S_ .f32 0x00000000#32)

/-- `W` transposed. -/
def wT (W : S64x64.Idx → EReal) : S64x64.Idx → EReal := transpose S64x64 [1, 0] W transposes_S64x64_S64x64_1_0

/-- The block-diagonal weight: `[[Wᵀ, 0], [0, Wᵀ]]`. -/
def blockDiag (W : S64x64.Idx → EReal) : S128x128.Idx → EReal :=
  concatenate S128x128 0
    [⟨S64x128, concatenate S64x128 1 [⟨S64x64, wT W⟩, ⟨S64x64, zeroBlock⟩] concatenates_S64x64_S64x64_S64x128_d1⟩,
     ⟨S64x128, concatenate S64x128 1 [⟨S64x64, zeroBlock⟩, ⟨S64x64, wT W⟩] concatenates_S64x64_S64x64_S64x128_d1⟩]
    concatenates_S64x128_S64x128_S128x128_d0

/-- The bias twice, as one row. -/
def bias2 (b : S64.Idx → EReal) : S1x128.Idx → EReal :=
  shapeCast S1x128 (concatenate S128 0 [⟨S64, b⟩, ⟨S64, b⟩] concatenates_S64_S64_S128_d0) shapeCasts_S128_S1x128

/-! ## The region finds them -/

variable (m : (ℓ : Loc nD τ sig) → Buf (Elt Ideal) ℓ)

theorem V_tokens (c : Dev nD) :
    (V m c main_v0 : S262144x128.Idx → EReal) = packX (m ((c : Thread nD τ).loc main_arg0)) := by
  dsimp only [Gen.V, Gen.V0]
  simp only [Gen.hostOps0, Gen.hostOps0_1, Gen.hostOps0_2, List.flatten_cons, List.flatten_nil, List.append_nil, List.cons_append, List.nil_append]
  after_results
  rfl

theorem V_weight (c : Dev nD) :
    (V m c main_v3 : S128x128.Idx → EReal) = blockDiag (m ((c : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results
  rfl

theorem V_bias (c : Dev nD) :
    (V m c main_v5 : S1x128.Idx → EReal) = bias2 (m ((c : Thread nD τ).loc main_arg2)) := by
  dsimp only [Gen.V, Gen.V0]
  simp only [Gen.hostOps0, Gen.hostOps0_1, Gen.hostOps0_2, List.flatten_cons, List.flatten_nil, List.append_nil, List.cons_append, List.nil_append]
  after_results
  rfl

/-! ## Read at an index -/

/-- Entry `(r, k)` of the packed token array is the token array's entry at the same row-major position. -/
theorem packX_apply (x : S8x16x4096x64.Idx → EReal) (r : Fin 262144) (k : Fin 128)
    (a : Fin 8) (t : Fin 16) (s : Fin 4096) (d : Fin 64)
    (h : ((a.val * 16 + t.val) * 4096 + s.val) * 64 + d.val = r.val * 128 + k.val) :
    packX x (ix2 r k) = x (ix4 a t s d) := by
  unfold packX
  refine shapeCast_apply x _ _ _ ?_
  rw [Shape.rowMajor_val_four, Shape.rowMajor_val_two]
  exact h

/-- Every entry of the zero block is the extended real `0`. -/
theorem zeroBlock_apply (i : S64x64.Idx) : zeroBlock i = 0 := by
  unfold zeroBlock
  rw [broadcastInDim_apply _ bcast_S_S64x64 _ i ix0 (fun a => a.elim0), constant_apply, Ideal.ofBits_zero_f32]

theorem wT_apply (W : S64x64.Idx → EReal) (k l : Fin 64) : wT W (ix2 k l) = W (ix2 l k) :=
  transpose_ix2_apply W transposes_S64x64_S64x64_1_0 k l

/-- Upper-left block. -/
theorem blockDiag_ll (W : S64x64.Idx → EReal) (k l : Fin 128) (hk : k.val < 64) (hl : l.val < 64) :
    blockDiag W (ix2 k l) = W (ix2 ⟨l.val, hl⟩ ⟨k.val, hk⟩) := by
  unfold blockDiag
  rw [concatenate_pair_apply_left 0 _ _ concatenates_S64x128_S64x128_S128x128_d0 (ix2 k l) rfl (ix2 (⟨k.val, hk⟩ : Fin 64) l)
      (fun b => match b with | ⟨0, _⟩ => rfl | ⟨1, _⟩ => rfl),
    concatenate_pair_apply_left 1 _ _ concatenates_S64x64_S64x64_S64x128_d1 (ix2 (⟨k.val, hk⟩ : Fin 64) l) rfl (ix2 (⟨k.val, hk⟩ : Fin 64) (⟨l.val, hl⟩ : Fin 64))
      (fun b => match b with | ⟨0, _⟩ => rfl | ⟨1, _⟩ => rfl),
    wT_apply]

/-- Upper-right block: zero. -/
theorem blockDiag_lu (W : S64x64.Idx → EReal) (k l : Fin 128) (hk : k.val < 64) (hl : 64 ≤ l.val) :
    blockDiag W (ix2 k l) = 0 := by
  unfold blockDiag
  rw [concatenate_pair_apply_left 0 _ _ concatenates_S64x128_S64x128_S128x128_d0 (ix2 k l) rfl (ix2 (⟨k.val, hk⟩ : Fin 64) l)
      (fun b => match b with | ⟨0, _⟩ => rfl | ⟨1, _⟩ => rfl),
    concatenate_pair_apply_right 1 _ _ concatenates_S64x64_S64x64_S64x128_d1 (ix2 (⟨k.val, hk⟩ : Fin 64) l) rfl rfl
      (ix2 (⟨k.val, hk⟩ : Fin 64) (⟨l.val - 64, by have := l.isLt; omega⟩ : Fin 64))
      (fun b => match b with | ⟨0, _⟩ => fun _ => rfl | ⟨1, _⟩ => fun h => absurd rfl h)
      (by show l.val - 64 + 64 = l.val; omega),
    zeroBlock_apply]

/-- Lower-left block: zero. -/
theorem blockDiag_ul (W : S64x64.Idx → EReal) (k l : Fin 128) (hk : 64 ≤ k.val) (hl : l.val < 64) :
    blockDiag W (ix2 k l) = 0 := by
  unfold blockDiag
  rw [concatenate_pair_apply_right 0 _ _ concatenates_S64x128_S64x128_S128x128_d0 (ix2 k l) rfl rfl
      (ix2 (⟨k.val - 64, by have := k.isLt; omega⟩ : Fin 64) l)
      (fun b => match b with | ⟨0, _⟩ => fun h => absurd rfl h | ⟨1, _⟩ => fun _ => rfl)
      (by show k.val - 64 + 64 = k.val; omega),
    concatenate_pair_apply_left 1 _ _ concatenates_S64x64_S64x64_S64x128_d1 (ix2 (⟨k.val - 64, by have := k.isLt; omega⟩ : Fin 64) l) rfl
      (ix2 (⟨k.val - 64, by have := k.isLt; omega⟩ : Fin 64) (⟨l.val, hl⟩ : Fin 64))
      (fun b => match b with | ⟨0, _⟩ => rfl | ⟨1, _⟩ => rfl),
    zeroBlock_apply]

/-- Lower-right block. -/
theorem blockDiag_uu (W : S64x64.Idx → EReal) (k l : Fin 128) (hk : 64 ≤ k.val) (hl : 64 ≤ l.val) :
    blockDiag W (ix2 k l) = W (ix2 ⟨l.val - 64, by have := l.isLt; omega⟩ ⟨k.val - 64, by have := k.isLt; omega⟩) := by
  unfold blockDiag
  rw [concatenate_pair_apply_right 0 _ _ concatenates_S64x128_S64x128_S128x128_d0 (ix2 k l) rfl rfl
      (ix2 (⟨k.val - 64, by have := k.isLt; omega⟩ : Fin 64) l)
      (fun b => match b with | ⟨0, _⟩ => fun h => absurd rfl h | ⟨1, _⟩ => fun _ => rfl)
      (by show k.val - 64 + 64 = k.val; omega),
    concatenate_pair_apply_right 1 _ _ concatenates_S64x64_S64x64_S64x128_d1 (ix2 (⟨k.val - 64, by have := k.isLt; omega⟩ : Fin 64) l) rfl rfl
      (ix2 (⟨k.val - 64, by have := k.isLt; omega⟩ : Fin 64) (⟨l.val - 64, by have := l.isLt; omega⟩ : Fin 64))
      (fun b => match b with | ⟨0, _⟩ => fun _ => rfl | ⟨1, _⟩ => fun h => absurd rfl h)
      (by show l.val - 64 + 64 = l.val; omega),
    wT_apply]

/-- The bias row below lane 64. -/
theorem bias2_lower (b : S64.Idx → EReal) (u : Fin 1) (l : Fin 128) (hl : l.val < 64) :
    bias2 b (ix2 u l) = b (ix1 ⟨l.val, hl⟩) := by
  unfold bias2
  rw [shapeCast_a_1a_apply _ shapeCasts_S128_S1x128 u l,
    concatenate_pair_apply_left 0 _ _ concatenates_S64_S64_S128_d0 (ix1 l) rfl (ix1 (⟨l.val, hl⟩ : Fin 64))
      (fun b => match b with | ⟨0, _⟩ => rfl)]

/-- The bias row from lane 64 on. -/
theorem bias2_upper (b : S64.Idx → EReal) (u : Fin 1) (l : Fin 128) (hl : 64 ≤ l.val) :
    bias2 b (ix2 u l) = b (ix1 ⟨l.val - 64, by have := l.isLt; omega⟩) := by
  unfold bias2
  rw [shapeCast_a_1a_apply _ shapeCasts_S128_S1x128 u l,
    concatenate_pair_apply_right 0 _ _ concatenates_S64_S64_S128_d0 (ix1 l) rfl rfl (ix1 (⟨l.val - 64, by have := l.isLt; omega⟩ : Fin 64))
      (fun b => match b with | ⟨0, _⟩ => fun h => absurd rfl h)
      (by show l.val - 64 + 64 = l.val; omega)]

end Cert.KernelIdeal.Entry

end
-- ==== Proof.Blocks.lean ====
import proofs.«143516_g33071248179949_cont_8to1_b_238_4_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«143516_g33071248179949_cont_8to1_b_238_4_alg».proof.Proof.Row
import proofs.«143516_g33071248179949_cont_8to1_b_238_4_alg».proof.Proof.Entry

/-
  From blocks to the array.

  The grid has 128 points. At point `t` the body sees rows `2048 t … 2048 t + 2047` of the packed token array (all 128
  lanes), the whole weight block and the whole bias row, and writes back rows `2048 t … 2048 t + 2047` of the output
  array. Since a cell depends on its own row of the token array only, what point `t` writes back is block `t` of ONE
  function of the three arrays (`packedOut`: each cell from its row); the 128 blocks tile the 262144 rows (row `r`
  is in block `r / 2048`), so after the region the output array IS that function.
-/

set_option maxRecDepth 16384

noncomputable section

namespace Cert.KernelIdeal.Blocks

open Cert.KernelIdeal Cert.KernelIdeal.Gen Idealize.ShloMosaic Idealize.ShloMosaic.TcCoe Idealize.SL.Sem Idealize.ShloMosaic.StableHlo Idealize.ShloMosaic.ValueIdx

/-- The output array as one function of the packed token array, the weight block and the bias row: each cell from
    its own row. -/
def packedOut (xf : S262144x128.Idx → EReal) (w2 : S128x128.Idx → EReal) (b2 : S1x128.Idx → EReal) : S262144x128.Idx → EReal :=
  fun i => Row.cell (fun k => xf (ix2 (i 0) k)) w2 b2 (i 1)

/-- A block whose rows are rows `2048 T + p` of `xf`, with the whole weight and bias, stores at `y` the value of
    `packedOut` at the array index over `y`. -/
theorem cell_at (xf : S262144x128.Idx → EReal) (w2 : S128x128.Idx → EReal) (b2 : S1x128.Idx → EReal)
    (x0 : Vec Ideal S2048x128 .f32) (x1 : Vec Ideal S128x128 .f32) (x2 : Vec Ideal S1x128 .f32) (T : Nat) (hT : T < 128)
    (h0 : ∀ (p : Fin 2048) (k : Fin 128), x0 (ix2 p k) = xf (ix2 (⟨T * 2048 + p.val, by have := p.isLt; omega⟩ : Fin 262144) k))
    (h1 : x1 = w2) (h2 : x2 = b2)
    (y : S2048x128.Idx) (i : S262144x128.Idx) (hi0 : (i 0).val = T * 2048 + (y 0).val) (hi1 : (i 1).val = (y 1).val) :
    k0_pay1 (F := Ideal) x0 x1 x2 y = packedOut xf w2 b2 i := by
  obtain ⟨p, q, rfl⟩ : ∃ (p : Fin 2048) (q : Fin 128), y = ix2 p q := ⟨y 0, y 1, eq_ix2 y⟩
  rw [Row.pay_apply]
  unfold packedOut
  refine Row.cell_congr (funext fun k => ?_) h1 h2 (Fin.ext hi1.symm)
  rw [h0 p k]
  exact congrArg (fun a : Fin 262144 => xf (ix2 a k)) (Fin.ext hi0.symm)

variable (m : (ℓ : Loc nD τ sig) → Buf (Elt Ideal) ℓ)

theorem hz : (![0, 0] : Fin 2 → Nat) = fun _ => 0 := funext fun a => by fin_cases a <;> rfl

/-- The printed index maps, decided over the grid: the token and output windows are at block `(t, 0)`, the weight and
    bias windows at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `packedOut` of the arrays as the region finds them. -/
theorem flushed_eq (c : Dev nD) (t : Fin cfg0.N) :
    (dats m 0 c).flushed 3 t
      = ((cfg0.win 3).blk t).view.read (Elt Ideal) (packedOut (V m c main_v0) (V m c main_v3) (V m c main_v5)) := by
  show (cfg0.win 3).cut (grid0.coords t) ((dats m 0 c).after 3 t) = _
  rw [after0_3]
  unfold out0_3
  rw [View.canon_unit_zero hz]
  simp only [View.ld_unit_zero (S := S2048x128) hz, View.ld_unit_zero (S := S128x128) hz, View.ld_unit_zero (S := S1x128) hz]
  obtain ⟨e00, e01, e10, e11, e20, e21, e30, e31⟩ := idx_facts t
  have ht : t.val < 128 := Nat.lt_of_lt_of_eq t.isLt N_0
  funext j
  show k0_pay1 (F := Ideal) (iblk m c 0 t) (iblk m c 1 t) (iblk m c 2 t) j
    = packedOut (V m c main_v0) (V m c main_v3) (V m c main_v5) (((cfg0.win 3).blk t).view.emb j)
  refine cell_at (V m c main_v0) (V m c main_v3) (V m c main_v5) (iblk m c 0 t) (iblk m c 1 t) (iblk m c 2 t) t.val ht
    (fun p k => ?_) (funext fun y => ?_) (funext fun y => ?_) j (((cfg0.win 3).blk t).view.emb j) ?_ ?_
  · show V m c main_v0 (((cfg0.win 0).blk t).view.emb (ix2 p k)) = V m c main_v0 _
    refine congrArg (V m c main_v0) (funext fun a => Fin.ext ?_)
    match a with
    | ⟨0, _⟩ => show win0_0.index t (0 : Fin 2) * 2048 + 1 * p.val = t.val * 2048 + p.val; omega
    | ⟨1, _⟩ => show win0_0.index t (1 : Fin 2) * 128 + 1 * k.val = k.val; omega
  · show V m c main_v3 (((cfg0.win 1).blk t).view.emb y) = V m c main_v3 y
    refine congrArg (V m c main_v3) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show V m c main_v5 (((cfg0.win 2).blk t).view.emb y) = V m c main_v5 y
    refine congrArg (V m c main_v5) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · show win0_3.index t (0 : Fin 2) * 2048 + 1 * (j 0).val = t.val * 2048 + (j 0).val; omega
  · show win0_3.index t (1 : Fin 2) * 128 + 1 * (j 1).val = (j 1).val; omega

/-- An index of the output array is in point `t`'s block exactly when each coordinate is in the block's range. -/
theorem mem_blk (t : Fin cfg0.N) (i : S262144x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v6).slice (win0_3.rect t)).set ↔ _
  rw [View.set_slice_whole, Rect.mem_set_unit]
  exact Iff.rfl

/-- Every row of the output array is in some point's block: row `r` in block `r / 2048`. -/
theorem cover (i : S262144x128.Idx) : ∃ t : Fin cfg0.N, (cfg0.win 3).flush t = true ∧ i ∈ ((cfg0.win 3).blk t).view.set := by
  have hi0 : (i 0).val < 262144 := (i 0).isLt
  have hi1 : (i 1).val < 128 := (i 1).isLt
  have hN : cfg0.N = 128 := N_0
  refine ⟨⟨(i 0).val / 2048, by rw [hN]; omega⟩, flush0_3 _, ?_⟩
  obtain ⟨-, -, -, -, -, -, e30, e31⟩ := idx_facts ⟨(i 0).val / 2048, by rw [hN]; omega⟩
  rw [mem_blk]
  intro a
  match a with
  | ⟨0, _⟩ =>
    show win0_3.index _ (0 : Fin 2) * 2048 ≤ (i 0).val ∧ (i 0).val < win0_3.index _ (0 : Fin 2) * 2048 + 2048
    rw [e30]; show (i 0).val / 2048 * 2048 ≤ (i 0).val ∧ (i 0).val < (i 0).val / 2048 * 2048 + 2048; omega
  | ⟨1, _⟩ =>
    show win0_3.index _ (1 : Fin 2) * 128 ≤ (i 1).val ∧ (i 1).val < win0_3.index _ (1 : Fin 2) * 128 + 128
    rw [e31]; omega

/-- The output array after the region, as a function of the arrays the region finds. -/
theorem final_V (c : Dev nD) :
    (dats m 0 c).arrAt 3 cfg0.N = packedOut (V m c main_v0) (V m c main_v3) (V m c main_v5) :=
  (dats m 0 c).arrAt_eq_of_cover 3 _ (fun t _ => flushed_eq m c t) cover

/-- The same as a function of the program's arguments. -/
theorem final (c : Dev nD) :
    (dats m 0 c).arrAt 3 cfg0.N
      = packedOut (Entry.packX (m ((c : Thread nD τ).loc main_arg0))) (Entry.blockDiag (m ((c : Thread nD τ).loc main_arg1)))
          (Entry.bias2 (m ((c : Thread nD τ).loc main_arg2))) := by
  rw [final_V, Entry.V_tokens m c, Entry.V_weight m c, Entry.V_bias m c]

end Cert.KernelIdeal.Blocks

end
-- ==== Proof.Tail.lean ====
import proofs.«143516_g33071248179949_cont_8to1_b_238_4_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«143516_g33071248179949_cont_8to1_b_238_4_alg».proof.Proof.Blocks

/-
  The host operation after the region, and the kernel program's run with its result named.

  After the region one reshape re-lays the [262144,128] output array as [8,16,4096,64]: the result at a 4-D index is
  the output array's entry at the same row-major position. So the program's result is ONE function of its three
  arguments: pack the tokens two per row, build the block-diagonal weight and the doubled bias, take each cell from
  its row, and re-lay.
-/

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo Idealize.ShloMosaic.ValueIdx

/-- The output array re-laid as the token array's shape. -/
def unpack (o : S262144x128.Idx → EReal) : S8x16x4096x64.Idx → EReal :=
  shapeCast S8x16x4096x64 o shapeCasts_S262144x128_S8x16x4096x64

/-- The kernel program's result as a function of its three arguments. -/
def result (x : S8x16x4096x64.Idx → EReal) (W : S64x64.Idx → EReal) (b : S64.Idx → EReal) : S8x16x4096x64.Idx → EReal :=
  unpack (Blocks.packedOut (Entry.packX x) (Entry.blockDiag W) (Entry.bias2 b))

variable (m : (ℓ : Loc nD τ sig) → Buf (Elt Ideal) ℓ) (ρ : Dev nD → PrngReg)

/-- What the reshape after the region leaves in the result buffer: the re-laid output array. -/
theorem tail_result (c : Dev nD) :
    (Pipeline.afterTail₀ cfgs (dats m) 0 (V0 m) [hostOps1] c main_v7 : S8x16x4096x64.Idx → EReal)
      = unpack ((dats m 0 c).arrAt 3 cfg0.N) := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = (dats m 0 c).arrAt 3 cfg0.N :=
    Pipeline.withArrays_arr spec0 launch0.win.arr_inj c (V0 m c) (fun w => (dats m 0 c).arrAt w cfg0.N) 3
  rw [e]
  rfl

/-- From any memory with zero counters every weakly fair execution of the kernel program terminates with the result
    buffer at `result` of the arguments' launch contents and the arguments unchanged. -/
theorem run : θ_run defs (onTc (τ := τ) (main (F := Ideal))) ⟨m, fun _ => 0, ρ⟩ fun r => ∀ c : Dev nD,
      r.2.mem ((c.tc : Thread nD τ).loc main_v7)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(((h c).2 main_v7 (Pipeline.mem_restRefs_of main_v7 (by decide) (by decide))).trans (tail_result m c)).trans
          (congrArg unpack (Blocks.final m c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Tail

end
-- ==== Proof.RefRun.lean ====
/-
  The reference program's run, read back. Its @main is a straight line of fifteen host operations (the two of the
  outlined `where` written in the call's place), so every weakly fair execution terminates with each buffer at the
  operations' composed value of the launch contents. The result buffer holds ONE function of the three argument
  arrays, `refTerm`: the select, by the row's "some |x| exceeds the threshold" bit broadcast along the feature
  axis, between the affine map `x · Wᵀ + b` and the zero array. The arguments are written by no operation.
-/
import proofs.«143516_g33071248179949_cont_8to1_b_238_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's fifteen operations, in program order. -/
abbrev ops : List (HloOp τ sig (Elt F)) :=
  [ unary main_arg0 main_v0 (Host.absf : (⟨S8x16x4096x64, .f32⟩ : BufTy).Contents (Elt F) → (⟨S8x16x4096x64, .f32⟩ : BufTy).Contents (Elt F)),
    nullary main_cst (constant S_ .f32 0x3C23D70A#32),
    unary main_cst main_v1 (broadcastInDim S8x16x4096x64 ![] bcast_S_S8x16x4096x64 : (⟨S_, .f32⟩ : BufTy).Contents (Elt F) → (⟨S8x16x4096x64, .f32⟩ : BufTy).Contents (Elt F)),
    binary main_v0 main_v1 main_v2 (cmpf .ogt : (⟨S8x16x4096x64, .f32⟩ : BufTy).Contents (Elt F) → (⟨S8x16x4096x64, .f32⟩ : BufTy).Contents (Elt F) → (⟨S8x16x4096x64, .i1⟩ : BufTy).Contents (Elt F)),
    nullary main_c (constantI S_ 1 0#1),
    binary main_v2 main_c main_v3 ((fun x v => Host.reduce IntOp.ori x v reducesTo_S8x16x4096x64_S8x16x4096_d3 h_S_) : (⟨S8x16x4096x64, .i1⟩ : BufTy).Contents (Elt F) → (⟨S_, .i1⟩ : BufTy).Contents (Elt F) → (⟨S8x16x4096, .i1⟩ : BufTy).Contents (Elt F)),
    binary main_arg0 main_arg1 main_v4 ((fun l r => Host.dotGeneral dot_S8x16x4096x64_S64x64_S8x16x4096x64_3_1_012_0_n_n none l r) : (⟨S8x16x4096x64, .f32⟩ : BufTy).Contents (Elt F) → (⟨S64x64, .f32⟩ : BufTy).Contents (Elt F) → (⟨S8x16x4096x64, .f32⟩ : BufTy).Contents (Elt F)),
    unary main_arg2 main_v5 (broadcastInDim S1x1x1x64 ![3] bcast_S64_S1x1x1x64_3 : (⟨S64, .f32⟩ : BufTy).Contents (Elt F) → (⟨S1x1x1x64, .f32⟩ : BufTy).Contents (Elt F)),
    unary main_v5 main_v6 (broadcastInDim S8x16x4096x64 ![0, 1, 2, 3] bcast_S1x1x1x64_S8x16x4096x64_0_1_2_3 : (⟨S1x1x1x64, .f32⟩ : BufTy).Contents (Elt F) → (⟨S8x16x4096x64, .f32⟩ : BufTy).Contents (Elt F)),
    binary main_v4 main_v6 main_v7 (addf : (⟨S8x16x4096x64, .f32⟩ : BufTy).Contents (Elt F) → (⟨S8x16x4096x64, .f32⟩ : BufTy).Contents (Elt F) → (⟨S8x16x4096x64, .f32⟩ : BufTy).Contents (Elt F)),
    unary main_v3 main_v8 (broadcastInDim S8x16x4096x1 ![0, 1, 2] bcast_S8x16x4096_S8x16x4096x1_0_1_2 : (⟨S8x16x4096, .i1⟩ : BufTy).Contents (Elt F) → (⟨S8x16x4096x1, .i1⟩ : BufTy).Contents (Elt F)),
    nullary main_cst_0 (constant S_ .f32 0x00000000#32),
    unary main_cst_0 main_v9 (broadcastInDim S8x16x4096x64 ![] bcast_S_S8x16x4096x64 : (⟨S_, .f32⟩ : BufTy).Contents (Elt F) → (⟨S8x16x4096x64, .f32⟩ : BufTy).Contents (Elt F)),
    unary main_v8 main_call0_v0 (broadcastInDim S8x16x4096x64 ![0, 1, 2, 3] bcast_S8x16x4096x1_S8x16x4096x64_0_1_2_3 : (⟨S8x16x4096x1, .i1⟩ : BufTy).Contents (Elt F) → (⟨S8x16x4096x64, .i1⟩ : BufTy).Contents (Elt F)),
    ternary main_call0_v0 main_v7 main_v9 main_v10 (select : (⟨S8x16x4096x64, .i1⟩ : BufTy).Contents (Elt F) → (⟨S8x16x4096x64, .f32⟩ : BufTy).Contents (Elt F) → (⟨S8x16x4096x64, .f32⟩ : BufTy).Contents (Elt F) → (⟨S8x16x4096x64, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., unary_bufs_sub .., binary_bufs_sub .., nullary_bufs_sub .., binary_bufs_sub .., binary_bufs_sub .., unary_bufs_sub .., unary_bufs_sub .., binary_bufs_sub .., unary_bufs_sub .., nullary_bufs_sub .., unary_bufs_sub .., unary_bufs_sub .., ternary_bufs_sub ..⟩

/-- The row mask: per token, the `or` over the feature axis of `|x| > threshold`, from `false`. -/
def rowMask (x0 : (⟨S8x16x4096x64, .f32⟩ : BufTy).Contents (Elt F)) : (⟨S8x16x4096, .i1⟩ : BufTy).Contents (Elt F) :=
  Host.reduce IntOp.ori
    (cmpf .ogt (Host.absf x0) (broadcastInDim S8x16x4096x64 ![] bcast_S_S8x16x4096x64 (constant S_ .f32 0x3C23D70A#32)))
    (constantI S_ 1 0#1) reducesTo_S8x16x4096x64_S8x16x4096_d3 h_S_

/-- The affine map: the contraction of `x`'s feature axis with `W`'s second axis, plus `b` along the feature axis. -/
def affine (x0 : (⟨S8x16x4096x64, .f32⟩ : BufTy).Contents (Elt F)) (x1 : (⟨S64x64, .f32⟩ : BufTy).Contents (Elt F)) (x2 : (⟨S64, .f32⟩ : BufTy).Contents (Elt F)) : (⟨S8x16x4096x64, .f32⟩ : BufTy).Contents (Elt F) :=
  addf (Host.dotGeneral dot_S8x16x4096x64_S64x64_S8x16x4096x64_3_1_012_0_n_n none x0 x1)
    (broadcastInDim S8x16x4096x64 ![0, 1, 2, 3] bcast_S1x1x1x64_S8x16x4096x64_0_1_2_3 (broadcastInDim S1x1x1x64 ![3] bcast_S64_S1x1x1x64_3 x2))

/-- What the result buffer holds: where the row's mask bit is set the affine map, elsewhere zero. -/
def refTerm (x0 : (⟨S8x16x4096x64, .f32⟩ : BufTy).Contents (Elt F)) (x1 : (⟨S64x64, .f32⟩ : BufTy).Contents (Elt F)) (x2 : (⟨S64, .f32⟩ : BufTy).Contents (Elt F)) : (⟨S8x16x4096x64, .f32⟩ : BufTy).Contents (Elt F) :=
  select
    (broadcastInDim S8x16x4096x64 ![0, 1, 2, 3] bcast_S8x16x4096x1_S8x16x4096x64_0_1_2_3
      (broadcastInDim S8x16x4096x1 ![0, 1, 2] bcast_S8x16x4096_S8x16x4096x1_0_1_2 (rowMask x0)))
    (affine x0 x1 x2)
    (broadcastInDim S8x16x4096x64 ![] bcast_S_S8x16x4096x64 (constant S_ .f32 0x00000000#32))

/-- The operations' composed value at the result buffer is `refTerm` of the arguments' contents. -/
theorem after_result (V : Valuation τ sig (Elt F)) :
    after (ops (F := F)) V (Proc.devRef .tc main_v10)
      = refTerm (V (Proc.devRef .tc main_arg0)) (V (Proc.devRef .tc main_arg1)) (V (Proc.devRef .tc main_arg2)) := by
  unfold refTerm affine rowMask
  after_results <;> rfl

set_option maxHeartbeats 1000000 in
/-- From any memory with zero counters every weakly fair execution of @main terminates with the result buffer at
    `refTerm` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
        = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v10).trans (after_result _),
      (h c main_arg0).trans (by after_results <;> rfl),
      (h c main_arg1).trans (by after_results <;> rfl),
      (h c main_arg2).trans (by after_results <;> rfl)⟩)
    (run_seq scopedRefs_eq scopedSems_eq defs main (fun _ => ops) main_eq (fun _ => ops_sub) m ρ)

end Cert.ReferenceIdeal.RefRun

end
-- ==== Proof.RefRead.lean ====
/-
  The reference's result read at an index.

  At token `(a, t, s)` and output feature `e`: the mask bit is the `or` over the 64 features of "|x| exceeds the
  threshold", so it is set exactly when some feature's |x| does; the affine map is the 64-term sum of the token's
  features against row `e` of `W`, plus `b e`; the result is the affine map where the bit is set and zero elsewhere.
-/
import proofs.«143516_g33071248179949_cont_8to1_b_238_4_alg».proof.Proof.RefRun
import proofs.«143516_g33071248179949_cont_8to1_b_238_4_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefRead

open Cert.ReferenceIdeal Cert.ReferenceIdeal.Gen Idealize.ShloMosaic Idealize.ShloMosaic.TcCoe Idealize.ShloMosaic.ValueIdx
open Cert.ReferenceIdeal.RefRun Cert.EventLinear

attribute [local instance] Classical.propDecidable

/-- The comparison array at an index: "|x| exceeds the threshold" as a bit. -/
theorem above_apply (x : FVec Ideal S8x16x4096x64 .f32) (i : S8x16x4096x64.Idx) :
    cmpf (F := Ideal) .ogt (Host.absf x) (broadcastInDim S8x16x4096x64 ![] bcast_S_S8x16x4096x64 (constant S_ .f32 0x3C23D70A#32)) i
      = Ideal.cmp .ogt (max (x i) (-(x i))) (Ideal.ofBits .f32 0x3C23D70A#32) := by
  show Ideal.cmp .ogt (max (x i) (-(x i))) (broadcastInDim S8x16x4096x64 ![] bcast_S_S8x16x4096x64 (constant (F := Ideal) S_ .f32 0x3C23D70A#32) i) = _
  rw [broadcastInDim_apply _ bcast_S_S8x16x4096x64 _ i ix0 (fun a => a.elim0)]
  rfl

/-- The mask bit of token `(a, t, s)` is set exactly when some feature's |x| exceeds the threshold. -/
theorem rowMask_eq_one (x : FVec Ideal S8x16x4096x64 .f32) (a : Fin 8) (t : Fin 16) (s : Fin 4096) :
    rowMask (F := Ideal) x (ix3 a t s) = 1#1
      ↔ ∃ k : Fin 64, Ideal.ofBits .f32 0x3C23D70A#32 < max (x (ix4 a t s k)) (-(x (ix4 a t s k))) := by
  unfold rowMask
  refine (reduce_ori_eq_one _ (constantI S_ 1 0#1) reducesTo_S8x16x4096x64_S8x16x4096_d3 h_S_ (fun _ => rfl) (ix3 a t s)).trans ?_
  constructor
  · rintro ⟨i, hi, hx⟩
    have h0 : (i 0).val = a.val :=
      (reducesTo_S8x16x4096x64_S8x16x4096_d3.drop_apply_val_of_eq i 0 0).symm.trans (congrArg (fun j : S8x16x4096.Idx => (j 0).val) hi)
    have h1 : (i 1).val = t.val :=
      (reducesTo_S8x16x4096x64_S8x16x4096_d3.drop_apply_val_of_eq i 1 1).symm.trans (congrArg (fun j : S8x16x4096.Idx => (j 1).val) hi)
    have h2 : (i 2).val = s.val :=
      (reducesTo_S8x16x4096x64_S8x16x4096_d3.drop_apply_val_of_eq i 2 2).symm.trans (congrArg (fun j : S8x16x4096.Idx => (j 2).val) hi)
    have ei : i = ix4 a t s (i 3) := funext fun d => Fin.ext (by
      match d with
      | ⟨0, _⟩ => exact h0
      | ⟨1, _⟩ => exact h1
      | ⟨2, _⟩ => exact h2
      | ⟨3, _⟩ => rfl)
    refine ⟨i 3, ?_⟩
    rw [above_apply, cmp_ogt_eq_one, ei] at hx
    exact hx
  · rintro ⟨k, hk⟩
    refine ⟨ix4 a t s k, funext fun b => Fin.ext ?_, ?_⟩
    · match b with
      | ⟨0, _⟩ => exact reducesTo_S8x16x4096x64_S8x16x4096_d3.drop_apply_val_of_eq _ 0 0
      | ⟨1, _⟩ => exact reducesTo_S8x16x4096x64_S8x16x4096_d3.drop_apply_val_of_eq _ 1 1
      | ⟨2, _⟩ => exact reducesTo_S8x16x4096x64_S8x16x4096_d3.drop_apply_val_of_eq _ 2 2
    · rw [above_apply, cmp_ogt_eq_one]
      exact hk

/-! ## The affine map -/

theorem lhs_0 (i : S8x16x4096x64.Idx) (κ : dot_S8x16x4096x64_S64x64_S8x16x4096x64_3_1_012_0_n_n.contr.Idx) : (dot_S8x16x4096x64_S64x64_S8x16x4096x64_3_1_012_0_n_n.lhsIdx i κ 0).val = (i 0).val := by
  unfold DotDims.lhsIdx
  rw [dif_neg (show ¬(0 : Fin S8x16x4096x64.rank) ∈ dot_S8x16x4096x64_S64x64_S8x16x4096x64_3_1_012_0_n_n.lhsBatch by decide), dif_pos (show (0 : Fin S8x16x4096x64.rank) ∈ dot_S8x16x4096x64_S64x64_S8x16x4096x64_3_1_012_0_n_n.lhsNonContracting by decide)]
  rfl
theorem lhs_1 (i : S8x16x4096x64.Idx) (κ : dot_S8x16x4096x64_S64x64_S8x16x4096x64_3_1_012_0_n_n.contr.Idx) : (dot_S8x16x4096x64_S64x64_S8x16x4096x64_3_1_012_0_n_n.lhsIdx i κ 1).val = (i 1).val := by
  unfold DotDims.lhsIdx
  rw [dif_neg (show ¬(1 : Fin S8x16x4096x64.rank) ∈ dot_S8x16x4096x64_S64x64_S8x16x4096x64_3_1_012_0_n_n.lhsBatch by decide), dif_pos (show (1 : Fin S8x16x4096x64.rank) ∈ dot_S8x16x4096x64_S64x64_S8x16x4096x64_3_1_012_0_n_n.lhsNonContracting by decide)]
  rfl
theorem lhs_2 (i : S8x16x4096x64.Idx) (κ : dot_S8x16x4096x64_S64x64_S8x16x4096x64_3_1_012_0_n_n.contr.Idx) : (dot_S8x16x4096x64_S64x64_S8x16x4096x64_3_1_012_0_n_n.lhsIdx i κ 2).val = (i 2).val := by
  unfold DotDims.lhsIdx
  rw [dif_neg (show ¬(2 : Fin S8x16x4096x64.rank) ∈ dot_S8x16x4096x64_S64x64_S8x16x4096x64_3_1_012_0_n_n.lhsBatch by decide), dif_pos (show (2 : Fin S8x16x4096x64.rank) ∈ dot_S8x16x4096x64_S64x64_S8x16x4096x64_3_1_012_0_n_n.lhsNonContracting by decide)]
  rfl
theorem lhs_3 (i : S8x16x4096x64.Idx) (κ : dot_S8x16x4096x64_S64x64_S8x16x4096x64_3_1_012_0_n_n.contr.Idx) : (dot_S8x16x4096x64_S64x64_S8x16x4096x64_3_1_012_0_n_n.lhsIdx i κ 3).val = (κ ⟨0, by decide⟩).val :=
  dot_S8x16x4096x64_S64x64_S8x16x4096x64_3_1_012_0_n_n.lhsIdx_val_of_single rfl i κ
theorem rhs_0 (i : S8x16x4096x64.Idx) (κ : dot_S8x16x4096x64_S64x64_S8x16x4096x64_3_1_012_0_n_n.contr.Idx) : (dot_S8x16x4096x64_S64x64_S8x16x4096x64_3_1_012_0_n_n.rhsIdx i κ 0).val = (i 3).val := by
  unfold DotDims.rhsIdx
  rw [dif_neg (show ¬(0 : Fin S64x64.rank) ∈ dot_S8x16x4096x64_S64x64_S8x16x4096x64_3_1_012_0_n_n.rhsBatch by decide), dif_pos (show (0 : Fin S64x64.rank) ∈ dot_S8x16x4096x64_S64x64_S8x16x4096x64_3_1_012_0_n_n.rhsNonContracting by decide)]
  rfl
theorem rhs_1 (i : S8x16x4096x64.Idx) (κ : dot_S8x16x4096x64_S64x64_S8x16x4096x64_3_1_012_0_n_n.contr.Idx) : (dot_S8x16x4096x64_S64x64_S8x16x4096x64_3_1_012_0_n_n.rhsIdx i κ 1).val = (κ ⟨0, by decide⟩).val :=
  dot_S8x16x4096x64_S64x64_S8x16x4096x64_3_1_012_0_n_n.rhsIdx_val_of_single rfl i κ

/-- The contraction at token `(a, t, s)`, feature `e`: the token's 64 features against row `e` of `W`. -/
theorem dot_apply (x : FVec Ideal S8x16x4096x64 .f32) (W : FVec Ideal S64x64 .f32) (a : Fin 8) (t : Fin 16) (s : Fin 4096) (e : Fin 64) :
    Host.dotGeneral (F := Ideal) dot_S8x16x4096x64_S64x64_S8x16x4096x64_3_1_012_0_n_n none x W (ix4 a t s e)
      = ∑ k : Fin 64, x (ix4 a t s k) * W (ix2 e k) := by
  simp only [Host.dotGeneral]
  rw [Ideal.dotGeneral_apply, ← Equiv.sum_comp (ValueIdx.contrEquiv1 dot_S8x16x4096x64_S64x64_S8x16x4096x64_3_1_012_0_n_n 64 rfl rfl).symm]
  refine Finset.sum_congr rfl fun k _ => ?_
  have hk := ValueIdx.contrEquiv1_symm_val dot_S8x16x4096x64_S64x64_S8x16x4096x64_3_1_012_0_n_n 64 rfl rfl k
  have el : dot_S8x16x4096x64_S64x64_S8x16x4096x64_3_1_012_0_n_n.lhsIdx (ix4 a t s e) ((ValueIdx.contrEquiv1 dot_S8x16x4096x64_S64x64_S8x16x4096x64_3_1_012_0_n_n 64 rfl rfl).symm k) = ix4 a t s k := funext fun d => Fin.ext (by
    match d with
    | ⟨0, _⟩ => exact lhs_0 _ _
    | ⟨1, _⟩ => exact lhs_1 _ _
    | ⟨2, _⟩ => exact lhs_2 _ _
    | ⟨3, _⟩ => exact (lhs_3 _ _).trans hk)
  have er : dot_S8x16x4096x64_S64x64_S8x16x4096x64_3_1_012_0_n_n.rhsIdx (ix4 a t s e) ((ValueIdx.contrEquiv1 dot_S8x16x4096x64_S64x64_S8x16x4096x64_3_1_012_0_n_n 64 rfl rfl).symm k) = ix2 e k := funext fun d => Fin.ext (by
    match d with
    | ⟨0, _⟩ => exact rhs_0 _ _
    | ⟨1, _⟩ => exact (rhs_1 _ _).trans hk)
  rw [el, er]

/-- The bias broadcast along the three token axes. -/
theorem bias_apply (b : FVec Ideal S64 .f32) (a : Fin 8) (t : Fin 16) (s : Fin 4096) (e : Fin 64) :
    broadcastInDim S8x16x4096x64 ![0, 1, 2, 3] bcast_S1x1x1x64_S8x16x4096x64_0_1_2_3
        (broadcastInDim S1x1x1x64 ![3] bcast_S64_S1x1x1x64_3 b) (ix4 a t s e) = b (ix1 e) := by
  rw [broadcastInDim_apply _ bcast_S1x1x1x64_S8x16x4096x64_0_1_2_3 _ (ix4 a t s e) (ix4 (0 : Fin 1) (0 : Fin 1) (0 : Fin 1) e) (fun d => match d with
      | ⟨0, _⟩ => by show 0 = if (1 : Nat) = 1 then 0 else a.val; rw [if_pos rfl]
      | ⟨1, _⟩ => by show 0 = if (1 : Nat) = 1 then 0 else t.val; rw [if_pos rfl]
      | ⟨2, _⟩ => by show 0 = if (1 : Nat) = 1 then 0 else s.val; rw [if_pos rfl]
      | ⟨3, _⟩ => by show e.val = if (64 : Nat) = 1 then 0 else e.val; rw [if_neg (by decide)]),
    broadcastInDim_apply _ bcast_S64_S1x1x1x64_3 b (ix4 (0 : Fin 1) (0 : Fin 1) (0 : Fin 1) e) (ix1 e) (fun d => match d with
      | ⟨0, _⟩ => by show e.val = if (64 : Nat) = 1 then 0 else e.val; rw [if_neg (by decide)])]

theorem affine_apply (x : FVec Ideal S8x16x4096x64 .f32) (W : FVec Ideal S64x64 .f32) (b : FVec Ideal S64 .f32)
    (a : Fin 8) (t : Fin 16) (s : Fin 4096) (e : Fin 64) :
    affine (F := Ideal) x W b (ix4 a t s e) = (∑ k : Fin 64, x (ix4 a t s k) * W (ix2 e k)) + b (ix1 e) := by
  unfold affine
  show Host.dotGeneral (F := Ideal) dot_S8x16x4096x64_S64x64_S8x16x4096x64_3_1_012_0_n_n none x W (ix4 a t s e)
      + broadcastInDim S8x16x4096x64 ![0, 1, 2, 3] bcast_S1x1x1x64_S8x16x4096x64_0_1_2_3 (broadcastInDim S1x1x1x64 ![3] bcast_S64_S1x1x1x64_3 b) (ix4 a t s e) = _
  rw [dot_apply, bias_apply]

/-! ## The result -/

/-- The mask broadcast back along the feature axis reads the token's bit. -/
theorem mask_apply (M : S8x16x4096.Idx → BitVec 1) (a : Fin 8) (t : Fin 16) (s : Fin 4096) (e : Fin 64) :
    broadcastInDim S8x16x4096x64 ![0, 1, 2, 3] bcast_S8x16x4096x1_S8x16x4096x64_0_1_2_3
        (broadcastInDim S8x16x4096x1 ![0, 1, 2] bcast_S8x16x4096_S8x16x4096x1_0_1_2 M) (ix4 a t s e) = M (ix3 a t s) := by
  rw [broadcastInDim_apply _ bcast_S8x16x4096x1_S8x16x4096x64_0_1_2_3 _ (ix4 a t s e) (ix4 a t s (0 : Fin 1)) (fun d => match d with
      | ⟨0, _⟩ => by show a.val = if (8 : Nat) = 1 then 0 else a.val; rw [if_neg (by decide)]
      | ⟨1, _⟩ => by show t.val = if (16 : Nat) = 1 then 0 else t.val; rw [if_neg (by decide)]
      | ⟨2, _⟩ => by show s.val = if (4096 : Nat) = 1 then 0 else s.val; rw [if_neg (by decide)]
      | ⟨3, _⟩ => by show 0 = if (1 : Nat) = 1 then 0 else e.val; rw [if_pos rfl]),
    broadcastInDim_apply _ bcast_S8x16x4096_S8x16x4096x1_0_1_2 M (ix4 a t s (0 : Fin 1)) (ix3 a t s) (fun d => match d with
      | ⟨0, _⟩ => by show a.val = if (8 : Nat) = 1 then 0 else a.val; rw [if_neg (by decide)]
      | ⟨1, _⟩ => by show t.val = if (16 : Nat) = 1 then 0 else t.val; rw [if_neg (by decide)]
      | ⟨2, _⟩ => by show s.val = if (4096 : Nat) = 1 then 0 else s.val; rw [if_neg (by decide)])]

/-- The reference's result at token `(a, t, s)`, feature `e`. -/
theorem refTerm_apply (x : FVec Ideal S8x16x4096x64 .f32) (W : FVec Ideal S64x64 .f32) (b : FVec Ideal S64 .f32)
    (a : Fin 8) (t : Fin 16) (s : Fin 4096) (e : Fin 64) :
    refTerm (F := Ideal) x W b (ix4 a t s e)
      = if ∃ k : Fin 64, Ideal.ofBits .f32 0x3C23D70A#32 < max (x (ix4 a t s k)) (-(x (ix4 a t s k)))
        then (∑ k : Fin 64, x (ix4 a t s k) * W (ix2 e k)) + b (ix1 e) else Ideal.ofBits .f32 0x00000000#32 := by
  unfold refTerm
  show Scalar.select
      (broadcastInDim S8x16x4096x64 ![0, 1, 2, 3] bcast_S8x16x4096x1_S8x16x4096x64_0_1_2_3
        (broadcastInDim S8x16x4096x1 ![0, 1, 2] bcast_S8x16x4096_S8x16x4096x1_0_1_2 (rowMask (F := Ideal) x)) (ix4 a t s e))
      (affine (F := Ideal) x W b (ix4 a t s e))
      (broadcastInDim S8x16x4096x64 ![] bcast_S_S8x16x4096x64 (constant (F := Ideal) S_ .f32 0x00000000#32) (ix4 a t s e)) = _
  rw [mask_apply, affine_apply, broadcastInDim_apply _ bcast_S_S8x16x4096x64 _ (ix4 a t s e) ix0 (fun d => d.elim0)]
  exact select_of_iff (rowMask_eq_one x a t s) _ _

end Cert.ReferenceIdeal.RefRead

end
-- ==== Proof.Bridge.lean ====
/-
  The two results are one function.

  Fix a token `(a, t, s)` and an output feature `e`, and let `n` be the token's number in row-major order. The kernel
  program keeps tokens `2r` and `2r + 1` in row `r` of its packed array, so this token sits in row `n / 2`, in lanes
  0–63 when `n` is even and 64–127 when it is odd, and its result is the cell at lane `e`, respectively `64 + e`.
  In either half: the lane test picks the maximum of |x| over the token's own 64 features, which exceeds the threshold
  exactly when some feature does; the column of the block-diagonal weight vanishes on the other token's 64 lanes, so
  the 128-term product is the token's 64 features against row `e` of `W`; and the doubled bias gives `b e`. That is
  the reference's result at the same index.
-/
import proofs.«143516_g33071248179949_cont_8to1_b_238_4_alg».proof.Proof.Tail
import proofs.«143516_g33071248179949_cont_8to1_b_238_4_alg».proof.Proof.RefRead

set_option maxRecDepth 16384

noncomputable section

namespace Cert.Bridge

open Idealize.ShloMosaic Idealize.ShloMosaic.ValueIdx Cert.EventLinear
open Cert.KernelIdeal (S8x16x4096x64 S64x64 S64 S128x128 S1x128 S262144x128)
open Cert.KernelIdeal.Gen (shapeCasts_S262144x128_S8x16x4096x64)
open Cert.KernelIdeal Entry Row Blocks Tail

attribute [local instance] Classical.propDecidable

/-! ## The block-diagonal weight and the doubled bias, with the half named -/

theorem blockDiag_own_lower (W : S64x64.Idx → EReal) (k l : Fin 128) (k' l' : Fin 64) (hk : k.val = k'.val) (hl : l.val = l'.val) :
    Entry.blockDiag W (ix2 k l) = W (ix2 l' k') := by
  have e1 : (⟨l.val, by omega⟩ : Fin 64) = l' := Fin.ext hl
  have e2 : (⟨k.val, by omega⟩ : Fin 64) = k' := Fin.ext hk
  rw [Entry.blockDiag_ll W k l (by omega) (by omega), e1, e2]

theorem blockDiag_own_upper (W : S64x64.Idx → EReal) (k l : Fin 128) (k' l' : Fin 64) (hk : k.val = 64 + k'.val) (hl : l.val = 64 + l'.val) :
    Entry.blockDiag W (ix2 k l) = W (ix2 l' k') := by
  have e1 : (⟨l.val - 64, by omega⟩ : Fin 64) = l' := Fin.ext (by show l.val - 64 = l'.val; omega)
  have e2 : (⟨k.val - 64, by omega⟩ : Fin 64) = k' := Fin.ext (by show k.val - 64 = k'.val; omega)
  rw [Entry.blockDiag_uu W k l (by omega) (by omega), e1, e2]

/-- The lane test: the 32-bit lane index is below 64 exactly when the lane is. -/
theorem lane_lt : ∀ l : Fin 128, IntOp.cmpi .slt (BitVec.ofNat 32 l.val) 64#32 = 1#1 ↔ l.val < 64 := by decide

/-! ## A cell in the lower and in the upper half of its row -/

/-- A cell at a lane `e` below 64: decided by, and computed from, the row's lower 64 lanes. -/
theorem cell_lower (row : Fin 128 → EReal) (W : S64x64.Idx → EReal) (b : S64.Idx → EReal) (l : Fin 128) (e : Fin 64) (hl : l.val = e.val) :
    Row.cell row (Entry.blockDiag W) (Entry.bias2 b) l
      = if ∃ k : Fin 64, Ideal.ofBits .f32 0x3C23D70A#32 < max (row (Fin.castAdd 64 k)) (-(row (Fin.castAdd 64 k)))
        then (∑ k : Fin 64, row (Fin.castAdd 64 k) * W (ix2 e k)) + b (ix1 e) else Ideal.ofBits .f32 0x00000000#32 := by
  have hl64 : l.val < 64 := by omega
  have hs : (∑ k : Fin 128, row k * Entry.blockDiag W (ix2 k l)) = ∑ k : Fin 64, row (Fin.castAdd 64 k) * W (ix2 e k) := by
    rw [sum_mul_lower row (fun k => Entry.blockDiag W (ix2 k l))
      (fun k => Entry.blockDiag_ul W (Fin.natAdd 64 k) l (by show 64 ≤ 64 + k.val; omega) hl64)]
    refine Finset.sum_congr rfl fun k _ => ?_
    show row (Fin.castAdd 64 k) * Entry.blockDiag W (ix2 (Fin.castAdd 64 k) l) = _
    rw [blockDiag_own_lower W (Fin.castAdd 64 k) l k e rfl hl]
  have hb : Entry.bias2 b (ix2 (0 : Fin 1) l) = b (ix1 e) := by
    rw [Entry.bias2_lower b 0 l hl64]; exact congrArg (fun a : Fin 64 => b (ix1 a)) (Fin.ext hl)
  unfold Row.cell
  rw [(lane_lt l).2 hl64, select_one, hs, hb, ofBits_neg_inf]
  exact select_of_iff ((cmp_ogt_eq_one _ _).trans (lt_fold_max_bot_iff _ _)) _ _

/-- A cell at lane `64 + e`: decided by, and computed from, the row's upper 64 lanes. -/
theorem cell_upper (row : Fin 128 → EReal) (W : S64x64.Idx → EReal) (b : S64.Idx → EReal) (l : Fin 128) (e : Fin 64) (hl : l.val = 64 + e.val) :
    Row.cell row (Entry.blockDiag W) (Entry.bias2 b) l
      = if ∃ k : Fin 64, Ideal.ofBits .f32 0x3C23D70A#32 < max (row (Fin.natAdd 64 k)) (-(row (Fin.natAdd 64 k)))
        then (∑ k : Fin 64, row (Fin.natAdd 64 k) * W (ix2 e k)) + b (ix1 e) else Ideal.ofBits .f32 0x00000000#32 := by
  have hl64 : 64 ≤ l.val := by omega
  have hs : (∑ k : Fin 128, row k * Entry.blockDiag W (ix2 k l)) = ∑ k : Fin 64, row (Fin.natAdd 64 k) * W (ix2 e k) := by
    rw [sum_mul_upper row (fun k => Entry.blockDiag W (ix2 k l))
      (fun k => Entry.blockDiag_lu W (Fin.castAdd 64 k) l (by show k.val < 64; exact k.isLt) hl64)]
    refine Finset.sum_congr rfl fun k _ => ?_
    show row (Fin.natAdd 64 k) * Entry.blockDiag W (ix2 (Fin.natAdd 64 k) l) = _
    rw [blockDiag_own_upper W (Fin.natAdd 64 k) l k e rfl hl]
  have hb : Entry.bias2 b (ix2 (0 : Fin 1) l) = b (ix1 e) := by
    rw [Entry.bias2_upper b 0 l hl64]; exact congrArg (fun a : Fin 64 => b (ix1 a)) (Fin.ext (by show l.val - 64 = e.val; omega))
  have hlane : IntOp.cmpi .slt (BitVec.ofNat 32 l.val) 64#32 = 0#1 :=
    eq_zero_of_ne_one (fun h => absurd ((lane_lt l).1 h) (by omega))
  unfold Row.cell
  rw [hlane, select_zero, hs, hb, ofBits_neg_inf]
  exact select_of_iff ((cmp_ogt_eq_one _ _).trans (lt_fold_max_bot_iff _ _)) _ _

/-! ## The kernel program's result at an index -/

theorem result_apply (x : S8x16x4096x64.Idx → EReal) (W : S64x64.Idx → EReal) (b : S64.Idx → EReal)
    (a : Fin 8) (t : Fin 16) (s : Fin 4096) (e : Fin 64) :
    Tail.result x W b (ix4 a t s e)
      = if ∃ k : Fin 64, Ideal.ofBits .f32 0x3C23D70A#32 < max (x (ix4 a t s k)) (-(x (ix4 a t s k)))
        then (∑ k : Fin 64, x (ix4 a t s k) * W (ix2 e k)) + b (ix1 e) else Ideal.ofBits .f32 0x00000000#32 := by
  have ha := a.isLt; have ht := t.isLt; have hs := s.isLt; have he := e.isLt
  unfold Tail.result Tail.unpack
  rcases Nat.mod_two_eq_zero_or_one ((a.val * 16 + t.val) * 4096 + s.val) with h | h
  · -- an even token: the lower half of row n / 2
    rw [shapeCast_apply _ shapeCasts_S262144x128_S8x16x4096x64 (ix4 a t s e)
      (ix2 (⟨((a.val * 16 + t.val) * 4096 + s.val) / 2, by omega⟩ : Fin 262144) (⟨e.val, by omega⟩ : Fin 128)) (by
        rw [Shape.rowMajor_val_two, Shape.rowMajor_val_four]
        show ((a.val * 16 + t.val) * 4096 + s.val) / 2 * 128 + e.val = ((a.val * 16 + t.val) * 4096 + s.val) * 64 + e.val
        omega)]
    show Row.cell (fun k => Entry.packX x (ix2 (⟨((a.val * 16 + t.val) * 4096 + s.val) / 2, _⟩ : Fin 262144) k)) (Entry.blockDiag W) (Entry.bias2 b) (⟨e.val, _⟩ : Fin 128) = _
    rw [cell_lower _ W b ⟨e.val, by omega⟩ e rfl]
    have hrow : ∀ k : Fin 64, Entry.packX x (ix2 (⟨((a.val * 16 + t.val) * 4096 + s.val) / 2, by omega⟩ : Fin 262144) (Fin.castAdd 64 k)) = x (ix4 a t s k) :=
      fun k => Entry.packX_apply x _ _ a t s k (by
        show ((a.val * 16 + t.val) * 4096 + s.val) * 64 + k.val = ((a.val * 16 + t.val) * 4096 + s.val) / 2 * 128 + k.val
        omega)
    simp only [hrow]
  · -- an odd token: the upper half of row n / 2
    rw [shapeCast_apply _ shapeCasts_S262144x128_S8x16x4096x64 (ix4 a t s e)
      (ix2 (⟨((a.val * 16 + t.val) * 4096 + s.val) / 2, by omega⟩ : Fin 262144) (⟨64 + e.val, by omega⟩ : Fin 128)) (by
        rw [Shape.rowMajor_val_two, Shape.rowMajor_val_four]
        show ((a.val * 16 + t.val) * 4096 + s.val) / 2 * 128 + (64 + e.val) = ((a.val * 16 + t.val) * 4096 + s.val) * 64 + e.val
        omega)]
    show Row.cell (fun k => Entry.packX x (ix2 (⟨((a.val * 16 + t.val) * 4096 + s.val) / 2, _⟩ : Fin 262144) k)) (Entry.blockDiag W) (Entry.bias2 b) (⟨64 + e.val, _⟩ : Fin 128) = _
    rw [cell_upper _ W b ⟨64 + e.val, by omega⟩ e rfl]
    have hrow : ∀ k : Fin 64, Entry.packX x (ix2 (⟨((a.val * 16 + t.val) * 4096 + s.val) / 2, by omega⟩ : Fin 262144) (Fin.natAdd 64 k)) = x (ix4 a t s k) :=
      fun k => Entry.packX_apply x _ _ a t s k (by
        show ((a.val * 16 + t.val) * 4096 + s.val) * 64 + k.val = ((a.val * 16 + t.val) * 4096 + s.val) / 2 * 128 + (64 + k.val)
        omega)
    simp only [hrow]

/-! ## One function -/

/-- The kernel program's result and the reference's are the same function of the three arguments. -/
theorem result_eq (x : S8x16x4096x64.Idx → EReal) (W : S64x64.Idx → EReal) (b : S64.Idx → EReal) :
    Tail.result x W b = Cert.ReferenceIdeal.RefRun.refTerm (F := Ideal) x W b := by
  funext i
  obtain ⟨a, t, s, e, rfl⟩ : ∃ (a : Fin 8) (t : Fin 16) (s : Fin 4096) (e : Fin 64), i = ix4 a t s e :=
    ⟨i 0, i 1, i 2, i 3, eq_ix4 i⟩
  rw [result_apply, Cert.ReferenceIdeal.RefRead.refTerm_apply]

end Cert.Bridge

end
-- ==== Proof.lean ====
/-
  An event-driven linear layer, proved equal to its dense reference on the extended reals.

  Input: tokens `x : [8, 16, 4096, 64]`, a weight `W : [64, 64]` and a bias `b : [64]`. A token "fires" when some
  feature's absolute value exceeds the threshold 0.01 (as an f32); a firing token's output is `x · Wᵀ + b`, any
  other token's output is zero.

  The reference computes exactly that: an `or` over the 64 comparison bits of a token, a contraction of the feature
  axis with `W`'s second axis, the bias broadcast, and a select against the zero array.

  The kernel program packs two consecutive tokens into one 128-lane row, multiplies by the block-diagonal weight
  `[[Wᵀ, 0], [0, Wᵀ]]` with the bias doubled, decides each half-row by comparing the maximum of |x| over that half
  (taken from negative infinity) with the threshold, and re-lays the result as `[8, 16, 4096, 64]`. It runs as 128
  grid points of 2048 rows each.

  Why the two agree, index by index (Proof/Bridge.lean): a maximum over a finite family exceeds a bound exactly when
  a member does, and negative infinity exceeds nothing; the off-diagonal blocks contribute products with zero, which
  are zero on the extended reals whatever the other factor; and re-laying an array moves no value. No finiteness of
  the inputs is needed, so the precondition is never opened.

  The modules: Proof/Spec.lean (the laws above, with no program in sight); Proof/RefRun.lean and Proof/RefRead.lean
  (the reference's run, and its result read at an index); Proof/Entry.lean, Proof/Row.lean, Proof/Blocks.lean and
  Proof/Tail.lean (the kernel program: the arrays its region finds, one stored cell, the output array from its 128
  blocks, and the run with the result named); Proof/Bridge.lean (the two results are one function). Each program's
  frame — termination, no fault, arguments unchanged — is the generated one for the two kernel programs and the
  reference's run with its result dropped.
-/
import proofs.«143516_g33071248179949_cont_8to1_b_238_4_alg».proof.Defs
import proofs.«143516_g33071248179949_cont_8to1_b_238_4_alg».proof.Proof.Gen.Kernel
import proofs.«143516_g33071248179949_cont_8to1_b_238_4_alg».proof.Proof.Gen.Kernel.Skeleton
import proofs.«143516_g33071248179949_cont_8to1_b_238_4_alg».proof.Proof.Gen.Kernel.Launch
import proofs.«143516_g33071248179949_cont_8to1_b_238_4_alg».proof.Proof.Gen.Kernel.Points
import proofs.«143516_g33071248179949_cont_8to1_b_238_4_alg».proof.Proof.Gen.Kernel.Frame
import proofs.«143516_g33071248179949_cont_8to1_b_238_4_alg».proof.Proof.Gen.KernelIdeal
import proofs.«143516_g33071248179949_cont_8to1_b_238_4_alg».proof.Proof.Gen.KernelIdeal.Skeleton
import proofs.«143516_g33071248179949_cont_8to1_b_238_4_alg».proof.Proof.Gen.KernelIdeal.Launch
import proofs.«143516_g33071248179949_cont_8to1_b_238_4_alg».proof.Proof.Gen.KernelIdeal.Points
import proofs.«143516_g33071248179949_cont_8to1_b_238_4_alg».proof.Proof.Gen.KernelIdeal.Frame
import proofs.«143516_g33071248179949_cont_8to1_b_238_4_alg».proof.Proof.Gen.ReferenceIdeal
import proofs.«143516_g33071248179949_cont_8to1_b_238_4_alg».proof.Proof.Gen.Pre_finite_inputs
import proofs.«143516_g33071248179949_cont_8to1_b_238_4_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Nothing of the kernel was rewritten for its reading on the extended reals, so there is nothing to preserve. -/
theorem preserves : Cert.preserves_Kernel_KernelIdeal := trivial

/-- From memories that agree on the three arguments both programs run to the end, and their results are equal as
    extended reals, element by element: each is the same function of the arguments (`Cert.Bridge.result_eq`). -/
theorem algebraic : Cert.algebraic_KernelIdeal_ReferenceIdeal := by
  intro m ρ m' ρ' _ hagree
  refine ⟨fun c => Cert.KernelIdeal.Tail.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Tail.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact (Cert.Bridge.result_eq _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
